-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) (main_arg2 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S8192 : Shape := ⟨1, ![8192]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S_ : Shape := ⟨0, ![]⟩
abbrev S1x8192 : Shape := ⟨2, ![1, 8192]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩

abbrev nBuf : Space → Nat
  | .hbm => 23
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S8192x1, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S8192, .f32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x8192, .f32⟩
  | .hbm, ⟨18, _⟩ => ⟨S8192x1, .f32⟩
  | .hbm, ⟨19, _⟩ => ⟨S1x8192, .f32⟩
  | .hbm, ⟨20, _⟩ => ⟨S1x1, .f32⟩
  | .hbm, ⟨21, _⟩ => ⟨S_, .f32⟩
  | .hbm, ⟨22, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S1024x1, .f32⟩
  | .local _ .vmem, ⟨7, _⟩ => ⟨S1024x1, .f32⟩
  | .local _ .vmem, ⟨8, _⟩ => ⟨S1x1024, .f32⟩
  | .local _ .vmem, ⟨9, _⟩ => ⟨S1x1024, .f32⟩
  | .local _ .vmem, ⟨10, _⟩ => ⟨S1024x1, .f32⟩
  | .local _ .vmem, ⟨11, _⟩ => ⟨S1024x1, .f32⟩
  | .local _ .vmem, ⟨12, _⟩ => ⟨S1x1024, .f32⟩
  | .local _ .vmem, ⟨13, _⟩ => ⟨S1x1024, .f32⟩
  | .local _ .vmem, ⟨14, _⟩ => ⟨S1x1, .f32⟩
  | .local _ .vmem, ⟨15, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v33 : BitVec 1 := Scalar.cmpi .eq arg0 c7_i32
  let arg1 : BitVec 32 := BitVec.ofNat 32 (i 1).val
  let c7_i32_16 : BitVec 32 := 7#32
  let v34 : BitVec 1 := Scalar.cmpi .eq arg1 c7_i32_16
  let v35 : BitVec 1 := Scalar.andi v33 v34
  let v36 : BitVec 32 := Scalar.extui v35
  let c0_i32_17 : BitVec 32 := 0#32
  let v37 : BitVec 1 := Scalar.cmpi .ne v36 c0_i32_17
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bcast_S_S8192 : S_.BroadcastsInDim S8192 (![] : Fin 0 → Fin S8192.rank)
  reducesTo_S8192_S_d0 : S8192.ReducesTo [0] S_
  h_S_ : 0 < S_.numel
  transposes_S8192x1_S1x8192_1_0 : S8192x1.Transposes [1, 0] S1x8192
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192x1, .i1⟩
  | .hbm, ⟨18, _⟩ => ⟨S1x8192, .i1⟩
  | .hbm, ⟨19, _⟩ => ⟨S8192x8192, .i1⟩
  | .hbm, ⟨20, _⟩ => ⟨S8192x8192, .i1⟩
  | .hbm, ⟨21, _⟩ => ⟨S8192x8192, .i1⟩
  | .hbm, ⟨22, _⟩ => ⟨S8192x1, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  natLt_1_32 : 1 < 32
  reducesTo_S8192x8192_S_d0_1 : S8192x8192.ReducesTo [0, 1] S_

variable [Facts₀]

class Facts : Prop extends Facts₀ where

variable [Facts]
-- ==== Proof.K.R0.lean ====
/-
  The distance stage (the first kernel launch) on one core, at any contents `V` of the core's buffers when the
  launch is entered: at grid point `t` the body reads rows `256 t … 256 t + 255` of the two input arrays whole,
  and stores into its 256×1 output block the value `k0_pay1` of the two blocks — per row the square root of
  the sum of squared differences, plus the literal. Stated for any float instance.
-/
import proofs.«156872_j69672959475957_1_alg».proof.Proof.Gen.Kernel.Launch
import proofs.«156872_j69672959475957_1_alg».proof.Proof.Gen.Kernel.Skeleton
import proofs.«156872_j69672959475957_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the distance stage, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 256×4096 input block and the whole 256×1 output block, as rectangles. -/
abbrev rIn0 : Rect S256x4096 := Rect.unit (s := S256x4096) ![0, 0] S256x4096.size inb_S256x4096_S256x4096_0_0
abbrev rOut0 : Rect S256x1 := Rect.unit (s := S256x1) ![0, 0] S256x1.size inb_S256x1_S256x1_0_0

/-- What the body leaves in the output block: its one store, of `k0_pay1` of the two input blocks. -/
def out0_2 (x0 x1 : Vec F S256x4096 .f32) : Vec F S256x1 .f32 :=
  View.canon [⟨rOut0, k0_pay1 (View.ld x0 rIn0) (View.ld x1 rIn0)⟩]

/-- The one store covers the output block. -/
theorem cover0_2 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging buffers: the inputs at contents `x0`, `x1`, the output at anything; it ends with the
    inputs as they were and the output at `out0_2 x0 x1`. -/
theorem sound_kernel0 (c : Dev nD) (E : Set ℕ) (i : grid0.Coords) (arg1 : Memref sig .tc .vmem S256x4096 .f32) (harg1 : arg1.IsWhole)
    (arg2 : Memref sig .tc .vmem S256x4096 .f32) (harg2 : arg2.IsWhole) (arg3 : Memref sig .tc .vmem S256x1 .f32) (harg3 : arg3.IsWhole)
    (x0 x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the distance stage on core `c`: the arrays at the entry contents; after the body at point
    `t` each input's buffer at its block, the output's at `out0_2` of the two blocks; nothing kept between points
    beyond what every launch keeps; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the distance stage, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  The pair stage (the second kernel launch): what its three control cases share. The grid is 8×8, point
  `t` = (t / 8, t % 8). The body clears its 1×1 accumulator at the first point only, adds the tile's masked
  margin sum at every point, and copies the accumulator into the 1×1 output block at the last point only;
  elsewhere the output block is left untouched and is not written back.
-/
import proofs.«156872_j69672959475957_1_alg».proof.Proof.Gen.Kernel.Launch
import proofs.«156872_j69672959475957_1_alg».proof.Proof.Gen.Kernel.Skeleton
import proofs.«156872_j69672959475957_1_alg».proof.Proof.Gen.Kernel.Points
import Idealize.ShloMosaic.Lib.Pipeline.FrameBody
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the coordinates. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- "This is the last grid point", as the body computes it. -/
abbrev cond1_1 (i : grid1.Coords) : Prop := k1_cond2 i = 1#1
/-- It holds at point 63 only. -/
theorem hcond1_1 : ∀ t : Fin cfg1.N, cond1_1 (grid1.coords t) ↔ t.val = 63 :=
  (by decide +kernel : ∀ t : Fin grid1.N, cond1_1 (grid1.coords t) ↔ t.val = 63)

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the output block is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last point it is live. -/
theorem liveAt1_4 : ∀ t : Fin cfg1.N, cond1_1 (grid1.coords t) → cfg1.idle 4 (grid1.coords t) = false := by decide +kernel

/-- One staging buffer of the output, through which its contents are stated. -/
abbrev VO1_4 : View sig .tc .vmem S1x1 .f32 := (Memref.whole cc1_stg4_0 : Memref sig .tc .vmem S1x1 .f32).view
/-- Each window's current staging buffer at point `t`, and its wholeness. -/
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The accumulator: a whole buffer of the kernel's own, kept from point to point. -/
abbrev scM1_0 : Memref sig .tc .vmem S1x1 .f32 := Memref.whole cc1_scratch0
abbrev VS1_0 : View sig .tc .vmem S1x1 .f32 := scM1_0.view

/-- What every launch keeps between points, with the accumulator named as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.R1RunA.lean ====
/-
  The pair stage's body at the first grid point: the accumulator is cleared, then the tile's sum is added; the output block is left untouched.
-/
import proofs.«156872_j69672959475957_1_alg».proof.Proof.K.R1Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging buffers: the pieces it leaves in the output block and in the
    accumulator (last store first), with the proof that the body runs to its end leaving the inputs as they were. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S1024x1 .f32) (x1 : Vec F S1x1024 .f32) (x2 : Vec F S1024x1 .f32) (x3 : Vec F S1x1024 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨[], ?_, fun xi4 E K => ?run⟩
  case run =>
    simp only [cc1__pair_kernel_eq_skeleton]; unfold cc1__pair_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R1RunB.lean ====
/-
  The pair stage's body at a grid point that is neither the first nor the last: the tile's sum is added to the accumulator kept from the point before; the output block is left untouched.
-/
import proofs.«156872_j69672959475957_1_alg».proof.Proof.K.R1RunA
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging buffers: the pieces it leaves in the output block and in the
    accumulator (last store first), with the proof that the body runs to its end leaving the inputs as they were. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S1024x1 .f32) (x1 : Vec F S1x1024 .f32) (x2 : Vec F S1024x1 .f32) (x3 : Vec F S1x1024 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨[], ?_, fun xi4 E K => ?run⟩
  case run =>
    simp only [cc1__pair_kernel_eq_skeleton]; unfold cc1__pair_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R1RunC.lean ====
/-
  The pair stage's body at the last grid point: the tile's sum is added to the accumulator kept from the point before, and the accumulator is copied into the output block.
-/
import proofs.«156872_j69672959475957_1_alg».proof.Proof.K.R1RunB
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging buffers: the pieces it leaves in the output block and in the
    accumulator (last store first), with the proof that the body runs to its end leaving the inputs as they were. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨?_, ?_, fun E K => ?run⟩
  case run =>
    simp only [cc1__pair_kernel_eq_skeleton]; unfold cc1__pair_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R1.lean ====
/-
  The pair stage on one core, at any contents `V` of the core's buffers when the launch is entered: the
  accumulator after each grid point as a recursion over the points (`outsAt1`), the proof data, and the body
  obligation — at every point the body takes the accumulator at what the point before left and leaves it at
  this point's value; the output block receives the accumulator at the last point only.
-/
import proofs.«156872_j69672959475957_1_alg».proof.Proof.K.R1RunC
import Idealize.ShloMosaic.Lib.Pipeline.RegionsLoop
import Idealize.ShloMosaic.Lib.Pipeline.FrameSuffix
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the pair stage, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What case A leaves in the output block, read back from its pieces (none: a placeholder nothing consults, the block being idle and not written back there). -/
def out1_A_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S1024x1 .f32) (x1 : Vec F S1x1024 .f32) (x2 : Vec F S1024x1 .f32) (x3 : Vec F S1x1024 .f32) : Vec F S1x1 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for the accumulator cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S1024x1 .f32) (x1 : Vec F S1x1024 .f32) (x2 : Vec F S1024x1 .f32) (x3 : Vec F S1x1024 .f32) (y : S1x1.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1x1.size (by sl_kernel_rfl) y

/-- What case A leaves in the accumulator. -/
def sout1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S1024x1 .f32) (x1 : Vec F S1x1024 .f32) (x2 : Vec F S1024x1 .f32) (x3 : Vec F S1x1024 .f32) : Vec F S1x1 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What case B leaves in the output block, read back from its pieces (none: a placeholder nothing consults, the block being idle and not written back there). -/
def out1_B_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S1024x1 .f32) (x1 : Vec F S1x1024 .f32) (x2 : Vec F S1024x1 .f32) (x3 : Vec F S1x1024 .f32) (xs0 : Vec F S1x1 .f32) : Vec F S1x1 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's pieces for the accumulator cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S1024x1 .f32) (x1 : Vec F S1x1024 .f32) (x2 : Vec F S1024x1 .f32) (x3 : Vec F S1x1024 .f32) (xs0 : Vec F S1x1 .f32) (y : S1x1.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1x1.size (by sl_kernel_rfl) y

/-- What case B leaves in the accumulator. -/
def sout1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S1024x1 .f32) (x1 : Vec F S1x1024 .f32) (x2 : Vec F S1024x1 .f32) (x3 : Vec F S1x1024 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- What case C leaves in the output block, read back from its pieces. -/
def out1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) : Vec F S1x1 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's pieces for the accumulator cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) (y : S1x1.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x1.size (by sl_kernel_rfl) y

/-- What case C leaves in the accumulator. -/
def sout1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) : Vec F S1x1 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-- At the last point the one store into the output block covers it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) (y : S1x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x1.size (by sl_kernel_rfl) y

/-- THE ACCUMULATION: what the output block's buffer and the accumulator hold after the body at position `n`
    (a pair: the output block, then the accumulator) — the first point's case at 0, the last point's case at
    63, the middle case between, each over the accumulator the point before left. -/
def outsAt1 (c : Dev nD) : (n : ℕ) → n < cfg1.N → Vec F S1x1 .f32 × Vec F S1x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => absurd ((hcond1_1 ⟨0, hn⟩).mp h) (show ¬ (0 : ℕ) = 63 by decide)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => absurd ((hcond1_1 ⟨0, hn⟩).mp h) (show ¬ (0 : ℕ) = 63 by decide)) (iblk1 V c 0 ⟨0, hn⟩) (iblk1 V c 1 ⟨0, hn⟩) (iblk1 V c 2 ⟨0, hn⟩) (iblk1 V c 3 ⟨0, hn⟩))
  | n + 1, hn =>
    if h1 : n + 1 = 63 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val = 0) (h1 : ¬t.val = 63) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 63) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 63) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- What the launch keeps between points: before the first point what every launch keeps; afterwards the same with
    the accumulator at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : ¬n = 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of the pair stage on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms of the two conditions say which
    case the point is in; the accumulator is handed over at what the point before left (at anything at the first
    point) and taken back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val = 0
  · have h1 : ¬t.val = 63 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    rw [PhiS_castSucc V c t, PhiS_zero V c _ _ h0, PhiA1_eq]
    iintro ⟨⟨⟨R1, R2, R3, R4, R5, R6, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [R1 R2 R3 R4 R5 R6 HS0 Hg]
    · isplitl [R1 R2 R3 R4 R5 R6 HS0]
      · isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS0
        ipureintro; exact View.read_writes_of_cover _ _ _ _ _ (scover1_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      rw [PhiS_castSucc V c t, PhiS_pos V c _ _ h0]
      iintro ⟨⟨⟨R1, R2, R3, R4, R5, R6, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS_castSucc V c t, PhiS_pos V c _ _ h0]
      iintro ⟨⟨⟨R1, R2, R3, R4, R5, R6, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation of the pair stage, at every point. -/
theorem body_obligation1 (c : Dev nD) : BodyObligation (dat1 (F := F) V c) (defs₀ (F := F)) Variants.none () Set.univ := fun t => by
  rw [bigSep_W1, bigSep_W1]
  exact sound_body1 V c t

/-- What the launch hands the stage is what it keeps before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but none, the accumulator's named contents can be forgotten. -/
theorem Phi_out1 (c : Dev nD) (t : Fin (cfg1.N + 1)) (ht : ¬t.val = 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R1, R2, R3, R4, R5, R6, HS0⟩, Hg⟩
  isplitl [R1 R2 R3 R4 R5 R6 HS0]
  · isplitl [R1]; · iexact R1
    isplitl [R2]; · iexact R2
    isplitl [R3]; · iexact R3
    isplitl [R4]; · iexact R4
    isplitl [R5]; · iexact R5
    isplitl [R6]; · iexact R6
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Run.lean ====
/-
  The whole program on the machine: the distance stage, sixteen host operations (the two masks, their sums and
  product, the transposed distance row, the two mask reshapes), the pair stage, and two host operations (the
  1×1 result as a scalar, divided by the count). The contents of every buffer at each boundary are named as a
  fold from the launch memory (`W0 … W4`); every weakly fair execution terminates without a fault with every
  unscoped buffer at `W4`, and the three argument arrays are as launched. Stated for any float instance.
-/
import proofs.«156872_j69672959475957_1_alg».proof.Proof.K.R0
import proofs.«156872_j69672959475957_1_alg».proof.Proof.K.R1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the distance stage's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the distance stage's exit: its arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the sixteen host operations (the pair stage's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the pair stage's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last two host operations (the end). -/
abbrev W4 : Dev nD → Valuation τ sig (Elt F) := fun c => StableHlo.after hostOps2 (W3 m ρ c)

/-! ### The arguments end as launched: no host operation writes one, and a stage only reads them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-! ## The proof data family and what rides along -/

abbrev adm : (p : Fin 2) → (pcfgs (F := F) p).Adm := fun p => (cfgs p).toPCfg_adm
/-- Both stages' proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The two stages as segments -/

set_option backward.isDefEq.respectTransparency.types false in
/-- The distance stage: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pair stage: entered from every unscoped buffer at `W2`, left at `W3`; its accumulator's contents are
    named between its points and forgotten at its exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every final state has every unscoped buffer at the end of the fold, `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

end Cert.Kernel.Hand

end
-- ==== Proof.KI.R0.lean ====
/-
  The distance stage (the first kernel launch) on one core, at any contents `V` of the core's buffers when the
  launch is entered: at grid point `t` the body reads rows `256 t … 256 t + 255` of the two input arrays whole,
  and stores into its 256×1 output block the value `k0_pay1` of the two blocks — per row the square root of
  the sum of squared differences, plus the literal. Stated for any float instance.
-/
import proofs.«156872_j69672959475957_1_alg».proof.Proof.Gen.KernelIdeal.Launch
import proofs.«156872_j69672959475957_1_alg».proof.Proof.Gen.KernelIdeal.Skeleton
import proofs.«156872_j69672959475957_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the distance stage, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 256×4096 input block and the whole 256×1 output block, as rectangles. -/
abbrev rIn0 : Rect S256x4096 := Rect.unit (s := S256x4096) ![0, 0] S256x4096.size inb_S256x4096_S256x4096_0_0
abbrev rOut0 : Rect S256x1 := Rect.unit (s := S256x1) ![0, 0] S256x1.size inb_S256x1_S256x1_0_0

/-- What the body leaves in the output block: its one store, of `k0_pay1` of the two input blocks. -/
def out0_2 (x0 x1 : Vec F S256x4096 .f32) : Vec F S256x1 .f32 :=
  View.canon [⟨rOut0, k0_pay1 (View.ld x0 rIn0) (View.ld x1 rIn0)⟩]

/-- The one store covers the output block. -/
theorem cover0_2 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging buffers: the inputs at contents `x0`, `x1`, the output at anything; it ends with the
    inputs as they were and the output at `out0_2 x0 x1`. -/
theorem sound_kernel0 (c : Dev nD) (E : Set ℕ) (i : grid0.Coords) (arg1 : Memref sig .tc .vmem S256x4096 .f32) (harg1 : arg1.IsWhole)
    (arg2 : Memref sig .tc .vmem S256x4096 .f32) (harg2 : arg2.IsWhole) (arg3 : Memref sig .tc .vmem S256x1 .f32) (harg3 : arg3.IsWhole)
    (x0 x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the distance stage on core `c`: the arrays at the entry contents; after the body at point
    `t` each input's buffer at its block, the output's at `out0_2` of the two blocks; nothing kept between points
    beyond what every launch keeps; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the distance stage, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  The pair stage (the second kernel launch): what its three control cases share. The grid is 8×8, point
  `t` = (t / 8, t % 8). The body clears its 1×1 accumulator at the first point only, adds the tile's masked
  margin sum at every point, and copies the accumulator into the 1×1 output block at the last point only;
  elsewhere the output block is left untouched and is not written back.
-/
import proofs.«156872_j69672959475957_1_alg».proof.Proof.Gen.KernelIdeal.Launch
import proofs.«156872_j69672959475957_1_alg».proof.Proof.Gen.KernelIdeal.Skeleton
import proofs.«156872_j69672959475957_1_alg».proof.Proof.Gen.KernelIdeal.Points
import Idealize.ShloMosaic.Lib.Pipeline.FrameBody
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the coordinates. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- "This is the last grid point", as the body computes it. -/
abbrev cond1_1 (i : grid1.Coords) : Prop := k1_cond2 i = 1#1
/-- It holds at point 63 only. -/
theorem hcond1_1 : ∀ t : Fin cfg1.N, cond1_1 (grid1.coords t) ↔ t.val = 63 :=
  (by decide +kernel : ∀ t : Fin grid1.N, cond1_1 (grid1.coords t) ↔ t.val = 63)

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the output block is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last point it is live. -/
theorem liveAt1_4 : ∀ t : Fin cfg1.N, cond1_1 (grid1.coords t) → cfg1.idle 4 (grid1.coords t) = false := by decide +kernel

/-- One staging buffer of the output, through which its contents are stated. -/
abbrev VO1_4 : View sig .tc .vmem S1x1 .f32 := (Memref.whole cc1_stg4_0 : Memref sig .tc .vmem S1x1 .f32).view
/-- Each window's current staging buffer at point `t`, and its wholeness. -/
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The accumulator: a whole buffer of the kernel's own, kept from point to point. -/
abbrev scM1_0 : Memref sig .tc .vmem S1x1 .f32 := Memref.whole cc1_scratch0
abbrev VS1_0 : View sig .tc .vmem S1x1 .f32 := scM1_0.view

/-- What every launch keeps between points, with the accumulator named as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.R1RunA.lean ====
/-
  The pair stage's body at the first grid point: the accumulator is cleared, then the tile's sum is added; the output block is left untouched.
-/
import proofs.«156872_j69672959475957_1_alg».proof.Proof.KI.R1Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging buffers: the pieces it leaves in the output block and in the
    accumulator (last store first), with the proof that the body runs to its end leaving the inputs as they were. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S1024x1 .f32) (x1 : Vec F S1x1024 .f32) (x2 : Vec F S1024x1 .f32) (x3 : Vec F S1x1024 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨[], ?_, fun xi4 E K => ?run⟩
  case run =>
    simp only [cc1__pair_kernel_eq_skeleton]; unfold cc1__pair_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunB.lean ====
/-
  The pair stage's body at a grid point that is neither the first nor the last: the tile's sum is added to the accumulator kept from the point before; the output block is left untouched.
-/
import proofs.«156872_j69672959475957_1_alg».proof.Proof.KI.R1RunA
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging buffers: the pieces it leaves in the output block and in the
    accumulator (last store first), with the proof that the body runs to its end leaving the inputs as they were. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S1024x1 .f32) (x1 : Vec F S1x1024 .f32) (x2 : Vec F S1024x1 .f32) (x3 : Vec F S1x1024 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨[], ?_, fun xi4 E K => ?run⟩
  case run =>
    simp only [cc1__pair_kernel_eq_skeleton]; unfold cc1__pair_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunC.lean ====
/-
  The pair stage's body at the last grid point: the tile's sum is added to the accumulator kept from the point before, and the accumulator is copied into the output block.
-/
import proofs.«156872_j69672959475957_1_alg».proof.Proof.KI.R1RunB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging buffers: the pieces it leaves in the output block and in the
    accumulator (last store first), with the proof that the body runs to its end leaving the inputs as they were. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨?_, ?_, fun E K => ?run⟩
  case run =>
    simp only [cc1__pair_kernel_eq_skeleton]; unfold cc1__pair_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R1.lean ====
/-
  The pair stage on one core, at any contents `V` of the core's buffers when the launch is entered: the
  accumulator after each grid point as a recursion over the points (`outsAt1`), the proof data, and the body
  obligation — at every point the body takes the accumulator at what the point before left and leaves it at
  this point's value; the output block receives the accumulator at the last point only.
-/
import proofs.«156872_j69672959475957_1_alg».proof.Proof.KI.R1RunC
import Idealize.ShloMosaic.Lib.Pipeline.RegionsLoop
import Idealize.ShloMosaic.Lib.Pipeline.FrameSuffix
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the pair stage, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What case A leaves in the output block, read back from its pieces (none: a placeholder nothing consults, the block being idle and not written back there). -/
def out1_A_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S1024x1 .f32) (x1 : Vec F S1x1024 .f32) (x2 : Vec F S1024x1 .f32) (x3 : Vec F S1x1024 .f32) : Vec F S1x1 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for the accumulator cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S1024x1 .f32) (x1 : Vec F S1x1024 .f32) (x2 : Vec F S1024x1 .f32) (x3 : Vec F S1x1024 .f32) (y : S1x1.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1x1.size (by sl_kernel_rfl) y

/-- What case A leaves in the accumulator. -/
def sout1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S1024x1 .f32) (x1 : Vec F S1x1024 .f32) (x2 : Vec F S1024x1 .f32) (x3 : Vec F S1x1024 .f32) : Vec F S1x1 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What case B leaves in the output block, read back from its pieces (none: a placeholder nothing consults, the block being idle and not written back there). -/
def out1_B_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S1024x1 .f32) (x1 : Vec F S1x1024 .f32) (x2 : Vec F S1024x1 .f32) (x3 : Vec F S1x1024 .f32) (xs0 : Vec F S1x1 .f32) : Vec F S1x1 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's pieces for the accumulator cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S1024x1 .f32) (x1 : Vec F S1x1024 .f32) (x2 : Vec F S1024x1 .f32) (x3 : Vec F S1x1024 .f32) (xs0 : Vec F S1x1 .f32) (y : S1x1.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1x1.size (by sl_kernel_rfl) y

/-- What case B leaves in the accumulator. -/
def sout1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S1024x1 .f32) (x1 : Vec F S1x1024 .f32) (x2 : Vec F S1024x1 .f32) (x3 : Vec F S1x1024 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- What case C leaves in the output block, read back from its pieces. -/
def out1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) : Vec F S1x1 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's pieces for the accumulator cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) (y : S1x1.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x1.size (by sl_kernel_rfl) y

/-- What case C leaves in the accumulator. -/
def sout1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) : Vec F S1x1 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-- At the last point the one store into the output block covers it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S1024x1 .f32) (x1 : Vec F S1x1024 .f32) (x2 : Vec F S1024x1 .f32) (x3 : Vec F S1x1024 .f32) (xs0 : Vec F S1x1 .f32) (y : S1x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x1.size (by sl_kernel_rfl) y

/-- THE ACCUMULATION: what the output block's buffer and the accumulator hold after the body at position `n`
    (a pair: the output block, then the accumulator) — the first point's case at 0, the last point's case at
    63, the middle case between, each over the accumulator the point before left. -/
def outsAt1 (c : Dev nD) : (n : ℕ) → n < cfg1.N → Vec F S1x1 .f32 × Vec F S1x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => absurd ((hcond1_1 ⟨0, hn⟩).mp h) (show ¬ (0 : ℕ) = 63 by decide)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => absurd ((hcond1_1 ⟨0, hn⟩).mp h) (show ¬ (0 : ℕ) = 63 by decide)) (iblk1 V c 0 ⟨0, hn⟩) (iblk1 V c 1 ⟨0, hn⟩) (iblk1 V c 2 ⟨0, hn⟩) (iblk1 V c 3 ⟨0, hn⟩))
  | n + 1, hn =>
    if h1 : n + 1 = 63 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val = 0) (h1 : ¬t.val = 63) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 63) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 63) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- What the launch keeps between points: before the first point what every launch keeps; afterwards the same with
    the accumulator at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : ¬n = 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of the pair stage on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms of the two conditions say which
    case the point is in; the accumulator is handed over at what the point before left (at anything at the first
    point) and taken back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val = 0
  · have h1 : ¬t.val = 63 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    rw [PhiS_castSucc V c t, PhiS_zero V c _ _ h0, PhiA1_eq]
    iintro ⟨⟨⟨R1, R2, R3, R4, R5, R6, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [R1 R2 R3 R4 R5 R6 HS0 Hg]
    · isplitl [R1 R2 R3 R4 R5 R6 HS0]
      · isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS0
        ipureintro; exact View.read_writes_of_cover _ _ _ _ _ (scover1_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      rw [PhiS_castSucc V c t, PhiS_pos V c _ _ h0]
      iintro ⟨⟨⟨R1, R2, R3, R4, R5, R6, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS_castSucc V c t, PhiS_pos V c _ _ h0]
      iintro ⟨⟨⟨R1, R2, R3, R4, R5, R6, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation of the pair stage, at every point. -/
theorem body_obligation1 (c : Dev nD) : BodyObligation (dat1 (F := F) V c) (defs₀ (F := F)) Variants.none () Set.univ := fun t => by
  rw [bigSep_W1, bigSep_W1]
  exact sound_body1 V c t

/-- What the launch hands the stage is what it keeps before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but none, the accumulator's named contents can be forgotten. -/
theorem Phi_out1 (c : Dev nD) (t : Fin (cfg1.N + 1)) (ht : ¬t.val = 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R1, R2, R3, R4, R5, R6, HS0⟩, Hg⟩
  isplitl [R1 R2 R3 R4 R5 R6 HS0]
  · isplitl [R1]; · iexact R1
    isplitl [R2]; · iexact R2
    isplitl [R3]; · iexact R3
    isplitl [R4]; · iexact R4
    isplitl [R5]; · iexact R5
    isplitl [R6]; · iexact R6
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Run.lean ====
/-
  The whole program on the machine: the distance stage, sixteen host operations (the two masks, their sums and
  product, the transposed distance row, the two mask reshapes), the pair stage, and two host operations (the
  1×1 result as a scalar, divided by the count). The contents of every buffer at each boundary are named as a
  fold from the launch memory (`W0 … W4`); every weakly fair execution terminates without a fault with every
  unscoped buffer at `W4`, and the three argument arrays are as launched. Stated for any float instance.
-/
import proofs.«156872_j69672959475957_1_alg».proof.Proof.KI.R0
import proofs.«156872_j69672959475957_1_alg».proof.Proof.KI.R1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the distance stage's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the distance stage's exit: its arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the sixteen host operations (the pair stage's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the pair stage's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last two host operations (the end). -/
abbrev W4 : Dev nD → Valuation τ sig (Elt F) := fun c => StableHlo.after hostOps2 (W3 m ρ c)

/-! ### The arguments end as launched: no host operation writes one, and a stage only reads them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-! ## The proof data family and what rides along -/

abbrev adm : (p : Fin 2) → (pcfgs (F := F) p).Adm := fun p => (cfgs p).toPCfg_adm
/-- Both stages' proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The two stages as segments -/

set_option backward.isDefEq.respectTransparency.types false in
/-- The distance stage: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pair stage: entered from every unscoped buffer at `W2`, left at `W3`; its accumulator's contents are
    named between its points and forgotten at its exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every final state has every unscoped buffer at the end of the fold, `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

end Cert.KernelIdeal.Hand

end
-- ==== Proof.LibTiles.lean ====
/-
  Finite sums re-indexed. A sum over m · n indices is the sum over m blocks of n consecutive ones; a running sum of
  finitely many steps is its start plus the sum of the steps so far; a sum over the indices of a one-axis array is the
  sum over its one coordinate. All in any commutative additive monoid (the extended reals among them: no finiteness
  of the terms is used).
-/
import Idealize.ShloMosaic.Lib.ValueIdx
import Mathlib.Algebra.BigOperators.Fin
import Mathlib.Logic.Equiv.Fin.Basic

namespace Cert.LibTiles

open Idealize.ShloMosaic Idealize.ShloMosaic.ValueIdx

/-- A sum over `m · n` indices is the sum over `m` blocks of `n` consecutive ones: index `n · i + a` is entry `a` of
    block `i`. -/
theorem sum_blocks {M : Type*} [AddCommMonoid M] (m n N : ℕ) (h : m * n = N) (f : Fin N → M)
    (hb : ∀ (i : Fin m) (a : Fin n), n * i.val + a.val < N) :
    ∑ p : Fin N, f p = ∑ i : Fin m, ∑ a : Fin n, f ⟨n * i.val + a.val, hb i a⟩ := by
  subst h
  rw [← Equiv.sum_comp finProdFinEquiv f, Fintype.sum_prod_type]
  refine Finset.sum_congr rfl fun i _ => Finset.sum_congr rfl fun a _ => congrArg f (Fin.ext ?_)
  show a.val + n * i.val = n * i.val + a.val
  exact Nat.add_comm _ _

/-- A running sum of `N` steps started at `z + h 0` and fed `h (n + 1)` at step `n + 1` is `z` plus the sum of `h` so far. -/
theorem running_sum_lt {M : Type*} [AddCommMonoid M] (N : ℕ) (z : M) (h acc : ℕ → M) (h0 : acc 0 = z + h 0)
    (hs : ∀ n, n + 1 < N → acc (n + 1) = acc n + h (n + 1)) (n : ℕ) (hn : n < N) :
    acc n = z + ∑ t ∈ Finset.range (n + 1), h t := by
  induction n with
  | zero => rw [h0]; simp
  | succ n ih => rw [hs n hn, ih (by omega), Finset.sum_range_succ _ (n + 1), add_assoc]

/-- A sum over the indices of a one-axis array is the sum over its coordinate. -/
theorem sum_idx1 {M : Type*} [AddCommMonoid M] {n : ℕ} (f : (⟨1, ![n]⟩ : Shape).Idx → M) : ∑ i, f i = ∑ k : Fin n, f (ix1 k) := by
  let e : (⟨1, ![n]⟩ : Shape).Idx ≃ Fin n := ⟨fun i => i 0, fun k => ix1 k, fun i => (eq_ix1 i).symm, fun _ => rfl⟩
  rw [← Equiv.sum_comp e.symm f]
  rfl

end Cert.LibTiles
-- ==== Proof.LibIndicator.lean ====
/-
  One-bit words as 0/1 reals on the extended reals. A one-bit word's indicator; choosing a value where two one-bit
  words are both 1, and 0 elsewhere, is multiplying it by both indicators; a sum of indicators is the number of
  ones; the conjunction of two one-bit words is 1 exactly when both are; and a count below 2³¹, held in a 32-bit
  word and read signed, is itself.
-/
import Idealize.ShloMosaic.PureOps.Ideal
import Idealize.ShloMosaic.PureOps.Ideal.Laws

noncomputable section

namespace Cert.LibIndicator

open Idealize.ShloMosaic

/-- A one-bit word as the real 0 or 1. -/
def ind (b : BitVec 1) : EReal := ((b.toNat : ℝ) : EReal)

theorem ind_one : ind 1#1 = 1 := by simp [ind]
theorem ind_zero : ind 0#1 = 0 := by simp [ind]

theorem bit_cases (b : BitVec 1) : b = 0#1 ∨ b = 1#1 := by
  rcases BitVec.eq_zero_or_eq_one b with h | h
  · exact Or.inl h
  · exact Or.inr h

/-- Both one-bit words are 1 exactly when their conjunction is. -/
theorem andi_eq_one_iff (b1 b2 : BitVec 1) : IntOp.andi b1 b2 = 1#1 ↔ b1 = 1#1 ∧ b2 = 1#1 := by
  rcases bit_cases b1 with rfl | rfl <;> rcases bit_cases b2 with rfl | rfl <;> decide

/-- Choosing a value where both one-bit words are 1, and 0 elsewhere, is multiplying it by both indicators. -/
theorem select_andi_eq_mul (b1 b2 : BitVec 1) (x : EReal) :
    Scalar.select (IntOp.andi b1 b2) x (0 : EReal) = x * (ind b1 * ind b2) := by
  rcases bit_cases b1 with rfl | rfl <;> rcases bit_cases b2 with rfl | rfl
  · rw [ind_zero, zero_mul, mul_zero]; rfl
  · rw [ind_zero, zero_mul, mul_zero]; rfl
  · rw [ind_zero, mul_zero, mul_zero]; rfl
  · rw [ind_one, mul_one, mul_one]; rfl

/-- A sum of indicators is the number of ones. -/
theorem sum_ind_eq_card {ι : Type*} [Fintype ι] (p : ι → BitVec 1) :
    ∑ k : ι, ind (p k) = (((Finset.univ.filter fun k => p k = 1#1).card : ℝ) : EReal) := by
  classical
  have h : ∀ k, ind (p k) = (((if p k = 1#1 then 1 else 0 : ℕ) : ℝ) : EReal) := fun k => by
    rcases bit_cases (p k) with e | e <;> rw [e] <;> simp [ind]
  simp only [h]
  rw [Finset.card_filter]
  induction (Finset.univ : Finset ι) using Finset.induction_on with
  | empty => simp
  | insert a S ha ih => rw [Finset.sum_insert ha, Finset.sum_insert ha, ih]; push_cast; rfl

/-- A count below 2³¹, as a 32-bit word read signed, is itself. -/
theorem toInt_ofNat_small (n : ℕ) (hn : n < 2 ^ 31) : (BitVec.ofNat 32 n).toInt = n := by
  rw [BitVec.toInt_eq_toNat_cond, BitVec.toNat_ofNat]
  have : n % 2 ^ 32 = n := Nat.mod_eq_of_lt (by omega)
  rw [this]
  split <;> omega

end Cert.LibIndicator

end
-- ==== Proof.Spec.lean ====
/-
  The mathematics of the margin ranking loss over the extended reals, with no program in sight.

  For N = 8192 samples with D = 4096 features: the distance of sample r is
      d r = √(Σ_k (A r k − B r k)²) + ε,
  a pair (p, q) counts when sample p is labelled 1 and sample q is labelled 0, its term is
      max (d p − d q + margin, 0),
  and the loss is the sum of the counted pairs' terms divided by the number of counted pairs, which is
  (number labelled 1) · (number labelled 0). A label's indicator is the 0/1 real of a one-bit word.

  Also here: the sum over all pairs regrouped into 8 × 8 tiles of 1024 × 1024 pairs (a sum over a product of
  finite index types, re-indexed; no finiteness of the terms is needed, only that addition is commutative and
  associative).
-/
import Idealize.ShloMosaic.PureOps.Ideal
import Idealize.ShloMosaic.PureOps.Ideal.Laws
import proofs.«156872_j69672959475957_1_alg».proof.Proof.LibTiles
import proofs.«156872_j69672959475957_1_alg».proof.Proof.LibIndicator

noncomputable section

namespace Cert.Spec

open Idealize.ShloMosaic

/-- The literal added to every distance (the binary32 value nearest 0.001) and the margin (5). -/
abbrev eps : EReal := Ideal.ofBits .f32 0x3A83126F#32
abbrev margin : EReal := Ideal.ofBits .f32 0x40A00000#32

/-- The distance of sample `r`. -/
def dist (A B : Fin 8192 → Fin 4096 → EReal) (r : Fin 8192) : EReal :=
  FloatOps.sqrt (F := Ideal) (φ := .f32) (∑ k : Fin 4096, (A r k - B r k) * (A r k - B r k)) + eps

export Cert.LibIndicator (ind ind_one ind_zero bit_cases select_andi_eq_mul sum_ind_eq_card)
export Cert.LibTiles (sum_blocks)

/-- "Sample `p` is labelled 1" and "sample `q` is labelled 0", as the programs compute them. -/
def posb (T : Fin 8192 → BitVec 32) (p : Fin 8192) : BitVec 1 := IntOp.cmpi .eq (T p) 1#32
def negb (T : Fin 8192 → BitVec 32) (q : Fin 8192) : BitVec 1 := IntOp.cmpi .eq (T q) 0#32

/-- A pair's margin term, and the term weighted by "the pair counts". -/
def hinge (d : Fin 8192 → EReal) (p q : Fin 8192) : EReal := max (d p - d q + margin) 0
def term (d : Fin 8192 → EReal) (T : Fin 8192 → BitVec 32) (p q : Fin 8192) : EReal :=
  hinge d p q * (ind (posb T p) * ind (negb T q))

/-- The sum over all pairs, the number of counted pairs, and the loss. -/
def num (d : Fin 8192 → EReal) (T : Fin 8192 → BitVec 32) : EReal := ∑ p : Fin 8192, ∑ q : Fin 8192, term d T p q
def den (T : Fin 8192 → BitVec 32) : EReal := (∑ p : Fin 8192, ind (posb T p)) * (∑ q : Fin 8192, ind (negb T q))
def loss (A B : Fin 8192 → Fin 4096 → EReal) (T : Fin 8192 → BitVec 32) : EReal :=
  FloatOps.hostDivf (F := Ideal) (φ := .f32) (num (dist A B) T) (den T)

/-! ## Tiles -/

/-- Row `a` of the tile that grid point `t` of the 8 × 8 grid works on, and its column `b`. -/
def rowOf (t : Fin 64) (a : Fin 1024) : Fin 8192 := ⟨1024 * (t.val / 8) + a.val, by have := t.isLt; have := a.isLt; omega⟩
def colOf (t : Fin 64) (b : Fin 1024) : Fin 8192 := ⟨1024 * (t.val % 8) + b.val, by have := t.isLt; have := b.isLt; omega⟩

/-- The sum over all pairs is the sum over the 64 tiles of each tile's 1024 × 1024 pairs. -/
theorem sum_pairs_eq_tiles {M : Type*} [AddCommMonoid M] (f : Fin 8192 → Fin 8192 → M) :
    ∑ p : Fin 8192, ∑ q : Fin 8192, f p q
      = ∑ t : Fin 64, ∑ a : Fin 1024, ∑ b : Fin 1024, f (rowOf t a) (colOf t b) := by
  have hb : ∀ (i : Fin 8) (a : Fin 1024), 1024 * i.val + a.val < 8192 := fun i a => by have := i.isLt; have := a.isLt; omega
  have hb' : ∀ (i : Fin 8) (j : Fin 8), 8 * i.val + j.val < 64 := fun i j => by have := i.isLt; have := j.isLt; omega
  rw [sum_blocks 8 1024 8192 rfl _ hb]
  simp only [sum_blocks 8 1024 8192 rfl _ hb]
  rw [sum_blocks 8 8 64 rfl _ hb']
  refine Finset.sum_congr rfl fun i _ => ?_
  rw [Finset.sum_comm]
  refine Finset.sum_congr rfl fun j _ => Finset.sum_congr rfl fun a _ => Finset.sum_congr rfl fun b _ => ?_
  have hi : (8 * i.val + j.val) / 8 = i.val := by have := j.isLt; omega
  have hj : (8 * i.val + j.val) % 8 = j.val := by have := j.isLt; omega
  exact congrArg₂ f (Fin.ext (by show _ = 1024 * ((8 * i.val + j.val) / 8) + a.val; rw [hi]))
    (Fin.ext (by show _ = 1024 * ((8 * i.val + j.val) % 8) + b.val; rw [hj]))

end Cert.Spec

end
-- ==== Proof.LibColumn.lean ====
/-
  Row-wise reductions kept as a column, read at an index, at the ideal values.
  A vector of a entries cast to an a×1 column reads its entry at the row; an a×1 column broadcast to a×b repeats each
  row's entry along the row; a sum (a maximum) along the rows of an a×b array is, at row i, the sum (the fold of max from
  the accumulator's value) over k < b of the entries (i, k).
-/
import Idealize.ShloMosaic.PureOps.Ideal.Laws
import Idealize.ShloMosaic.Lib.ValueIdx
import Idealize.ShloMosaic.Lib.Pipeline.Value

noncomputable section

namespace Cert.LibColumn

open Idealize.ShloMosaic Idealize.ShloMosaic.ValueIdx

variable {α : Type}

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `i` of a sum along the rows, with the column `k` put back, is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum along the rows of an `a × b` array, at row `i`: the sum of that row's entries. -/
theorem rowSum_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  rw [Ideal.multiReduction_add_single]
  exact Finset.sum_congr rfl fun k _ => congrArg src (lift_row h i k)

/-- A maximum along the rows of an `a × b` array, at row `i`: the fold of `max` from the accumulator's value over that
    row's entries. -/
theorem rowMax_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction (F := Ideal) .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) := funext fun k => congrArg src (lift_row h i k)
  exact congrArg (fun f => Finset.fold max (Ideal.ofBits φ acc) f (Finset.univ : Finset (Fin b))) hf

end Cert.LibColumn

end
-- ==== Proof.LibColSum.lean ====
/-
  A sum down the one column of an a × 1 array, read at its one index, at the ideal values: the sum of the column's
  entries (the companion of the sum along the rows of an a × b array).
-/
import Idealize.ShloMosaic.PureOps.Ideal.Laws
import Idealize.ShloMosaic.Lib.ValueIdx

noncomputable section

namespace Cert.LibColSum

open Idealize.ShloMosaic Idealize.ShloMosaic.ValueIdx

/-- The reduced index `u` of a sum down the one column of an `a × 1` array, with the row `k` put back, is `(k, u)`. -/
theorem lift_col {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

/-- A sum down the one column of an `a × 1` array: the sum of its entries. -/
theorem colSum_apply {φ : FTy} {a : ℕ} (src : FVec Ideal ⟨2, ![a, 1]⟩ φ) (acc : BitVec φ.bits)
    (h : (⟨2, ![a, 1]⟩ : Shape).Reduces [0] (⟨1, ![1]⟩ : Shape)) (hφ : FKind.Formats φ) (hacc : acc = FKind.add.neutral φ hφ)
    (u : Fin 1) :
    multiReduction (F := Ideal) .add [0] ⟨1, ![1]⟩ src acc h hφ hacc (ix1 u) = ∑ k : Fin a, src (ix2 k u) := by
  rw [Ideal.multiReduction_add_single]
  exact Finset.sum_congr rfl fun k _ => congrArg src (lift_col h u k)

end Cert.LibColSum

end
-- ==== Proof.PayIdeal.lean ====
/-
  The two kernel bodies' arithmetic read at an index, on the extended reals.
  The distance body: row p of its 256×1 result is √(Σ_k (x0 p k − x1 p k)²) + ε.
  The pair body: its 1×1 result is the incoming accumulator plus, over the tile's 1024 × 1024 pairs (a, b), the sum
  of max (x0 a − x1 b + margin, 0) · (x2 a · x3 b); the cleared accumulator is 0.
-/
import proofs.«156872_j69672959475957_1_alg».proof.Proof.Gen.KernelIdeal.Skeleton
import proofs.«156872_j69672959475957_1_alg».proof.Proof.Spec
import proofs.«156872_j69672959475957_1_alg».proof.Proof.LibColumn
import proofs.«156872_j69672959475957_1_alg».proof.Proof.LibColSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdeal

open Cert.KernelIdeal Cert.KernelIdeal.Gen
open Idealize.ShloMosaic Idealize.ShloMosaic.ValueIdx

/-- The distance body at row `p`. -/
theorem pay0_apply (x0 x1 : FVec Ideal S256x4096 .f32) (p : Fin 256) :
    k0_pay1 (F := Ideal) x0 x1 (ix2 p (0 : Fin 1))
      = FloatOps.sqrt (F := Ideal) (φ := .f32) (∑ k : Fin 4096, (x0 (ix2 p k) - x1 (ix2 p k)) * (x0 (ix2 p k) - x1 (ix2 p k))) + Cert.Spec.eps := by
  unfold k0_pay1
  dsimp only
  rw [addf_apply, broadcast_apply]
  refine congrArg₂ (· + ·) ?_ rfl
  show FloatOps.sqrt (F := Ideal) _ = _
  refine congrArg _ ?_
  refine (Cert.LibColumn.shapeCast_a_a1_apply _ shapeCasts_S256_S256x1 p (0 : Fin 1)).trans ?_
  refine (Cert.LibColumn.rowSum_apply _ 0x00000000#32 reduces_S256x4096_S256 (.inl rfl) rfl p).trans ?_
  rfl

/-- The cleared accumulator is 0. -/
theorem pay1_apply : k1_pay1 (F := Ideal) (ix2 (0 : Fin 1) (0 : Fin 1)) = 0 := by
  unfold k1_pay1
  rw [shapeCast_self, broadcast_apply]
  exact Ideal.ofBits_zero_f32

/-- One pair's term from the tile's four blocks. -/
def tileTerm (x0 : FVec Ideal S1024x1 .f32) (x1 : FVec Ideal S1x1024 .f32) (x2 : FVec Ideal S1024x1 .f32) (x3 : FVec Ideal S1x1024 .f32)
    (a b : Fin 1024) : EReal :=
  max (x0 (ix2 a (0 : Fin 1)) - x1 (ix2 (0 : Fin 1) b) + Cert.Spec.margin) 0 * (x2 (ix2 a (0 : Fin 1)) * x3 (ix2 (0 : Fin 1) b))

/-- The pair body: the incoming accumulator plus the tile's sum. -/
theorem pay2_apply (x0 : FVec Ideal S1024x1 .f32) (x1 : FVec Ideal S1x1024 .f32) (x2 : FVec Ideal S1024x1 .f32) (x3 : FVec Ideal S1x1024 .f32)
    (xs : FVec Ideal S1x1 .f32) :
    k1_pay2 (F := Ideal) x0 x1 x2 x3 xs (ix2 (0 : Fin 1) (0 : Fin 1))
      = xs (ix2 (0 : Fin 1) (0 : Fin 1)) + ∑ a : Fin 1024, ∑ b : Fin 1024, tileTerm x0 x1 x2 x3 a b := by
  unfold k1_pay2
  dsimp only
  simp only [shapeCast_self]
  rw [addf_apply]
  refine congrArg₂ (· + ·) rfl ?_
  refine (Cert.LibColumn.shapeCast_a_a1_apply _ shapeCasts_S1_S1x1 (0 : Fin 1) (0 : Fin 1)).trans ?_
  refine (Cert.LibColSum.colSum_apply _ 0x00000000#32 reduces_S1024x1_S1 (.inl rfl) rfl (0 : Fin 1)).trans ?_
  refine Finset.sum_congr rfl fun a _ => ?_
  refine (Cert.LibColumn.shapeCast_a_a1_apply _ shapeCasts_S1024_S1024x1 a (0 : Fin 1)).trans ?_
  refine (Cert.LibColumn.rowSum_apply _ 0x00000000#32 reduces_S1024x1024_S1024 (.inl rfl) rfl a).trans ?_
  refine Finset.sum_congr rfl fun b _ => ?_
  simp only [mulf_apply, maximumf_apply, addf_apply, subf_apply, broadcast_apply,
    Cert.LibColumn.broadcastTo_a1_ab_apply, broadcastTo_1b_ab_apply]
  show max (x0 (ix2 a (0 : Fin 1)) - x1 (ix2 (0 : Fin 1) b) + Cert.Spec.margin) (Ideal.ofBits .f32 0x00000000#32) * _ = _
  rw [Ideal.ofBits_zero_f32]
  rfl

end Cert.KernelIdeal.PayIdeal

end
-- ==== Proof.KVal0.lean ====
/-
  The distance stage's result on the extended reals: after its 32 grid points the 8192×1 result array holds, at
  row r, the distance of sample r — grid point t wrote rows 256 t … 256 t + 255 from the same rows of the two
  inputs, and the 32 blocks tile the array.
-/
import proofs.«156872_j69672959475957_1_alg».proof.Proof.KI.R0
import proofs.«156872_j69672959475957_1_alg».proof.Proof.PayIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The two inputs by row and column, the labels by sample, and the distances as the 8192×1 array. -/
def argA (c : Dev nD) : Fin 8192 → Fin 4096 → EReal := fun r k => (V c main_arg0 : S8192x4096.Idx → EReal) (ix2 r k)
def argB (c : Dev nD) : Fin 8192 → Fin 4096 → EReal := fun r k => (V c main_arg1 : S8192x4096.Idx → EReal) (ix2 r k)
def distArr (c : Dev nD) : S8192x1.Idx → EReal := fun i => Cert.Spec.dist (argA V c) (argB V c) ⟨(i 0).val, idx2_lt0 i⟩

/-- The printed index maps over the grid: block row t, block column 0, for all three windows. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (p : Fin 256) : 256 * t.val + p.val < 8192 := by
  have := t.isLt; have hN : cfg0.N = 32 := N_0; have := p.isLt; omega

/-- Entry (p, k) of the first input's block at point t is entry (256 t + p, k) of the first input. -/
theorem iblk0_0_apply (c : Dev nD) (t : Fin cfg0.N) (p : Fin 256) (k : Fin 4096) :
    (iblk0 V c 0 t : Vec Ideal S256x4096 .f32) (ix2 p k) = argA V c ⟨256 * t.val + p.val, row_lt t p⟩ k := by
  obtain ⟨e0, e1, -⟩ := idx_facts0 t
  unfold iblk0 argA
  rw [View.read_apply]
  show (V c main_arg0 : S8192x4096.Idx → EReal) _ = (V c main_arg0 : S8192x4096.Idx → EReal) _
  refine congrArg _ (funext fun a => Fin.ext ?_)
  match a with
  | ⟨0, _⟩ => show win0_0.index t (0 : Fin 2) * 256 + 1 * p.val = 256 * t.val + p.val; rw [e0]; omega
  | ⟨1, _⟩ => show win0_0.index t (1 : Fin 2) * 4096 + 1 * k.val = k.val; rw [e1]; omega

/-- The same for the second input. -/
theorem iblk0_1_apply (c : Dev nD) (t : Fin cfg0.N) (p : Fin 256) (k : Fin 4096) :
    (iblk0 V c 1 t : Vec Ideal S256x4096 .f32) (ix2 p k) = argB V c ⟨256 * t.val + p.val, row_lt t p⟩ k := by
  obtain ⟨-, -, e2, e3, -⟩ := idx_facts0 t
  unfold iblk0 argB
  rw [View.read_apply]
  show (V c main_arg1 : S8192x4096.Idx → EReal) _ = (V c main_arg1 : S8192x4096.Idx → EReal) _
  refine congrArg _ (funext fun a => Fin.ext ?_)
  match a with
  | ⟨0, _⟩ => show win0_1.index t (0 : Fin 2) * 256 + 1 * p.val = 256 * t.val + p.val; rw [e2]; omega
  | ⟨1, _⟩ => show win0_1.index t (1 : Fin 2) * 4096 + 1 * k.val = k.val; rw [e3]; omega

/-- What point t writes back is block t of the distances. -/
theorem flushed0_eq (c : Dev nD) (t : Fin cfg0.N) :
    (dat0 V c).flushed 2 t = ((cfg0.win 2).blk t).view.read (Elt Ideal) (distArr V c) := by
  show (cfg0.win 2).cut (grid0.coords t) ((dat0 V c).after 2 t) = _
  rw [after0_2]
  unfold out0_2
  rw [View.canon_unit_zero hz0]
  simp only [View.ld_unit_zero (S := S256x4096) hz0]
  obtain ⟨-, -, -, -, e4, e5⟩ := idx_facts0 t
  funext j
  obtain ⟨p, q, rfl⟩ : ∃ (p : Fin 256) (q : Fin 1), j = ix2 p q := ⟨j 0, j 1, eq_ix2 j⟩
  obtain rfl : q = 0 := Subsingleton.elim _ _
  refine (Cert.KernelIdeal.PayIdeal.pay0_apply (iblk0 V c 0 t) (iblk0 V c 1 t) p).trans ?_
  rw [View.read_apply]
  have hD : distArr V c (((cfg0.win 2).blk t).view.emb (ix2 p (0 : Fin 1))) = Cert.Spec.dist (argA V c) (argB V c) ⟨256 * t.val + p.val, row_lt t p⟩ := by
    unfold distArr
    refine congrArg (Cert.Spec.dist (argA V c) (argB V c)) (Fin.ext ?_)
    show win0_2.index t (0 : Fin 2) * 256 + 1 * p.val = 256 * t.val + p.val
    rw [e4]; omega
  refine Eq.trans ?_ hD.symm
  unfold Cert.Spec.dist
  refine congrArg₂ (· + ·) (congrArg _ (Finset.sum_congr rfl fun k _ => ?_)) rfl
  rw [iblk0_0_apply V c t p k, iblk0_1_apply V c t p k]

/-- So the result array ends holding the distances. -/
theorem final0 (c : Dev nD) : (dat0 V c).arrAt 2 cfg0.N = distArr V c :=
  (dat0 V c).arrAt_eq_of_cover 2 (distArr V c) (fun t _ => flushed0_eq V c t) fun i => by
    have hi0 : (i 0 : ℕ) < 8192 := (i 0).isLt
    have hi1 : (i 1 : ℕ) < 1 := (i 1).isLt
    have hN : cfg0.N = 32 := N_0
    have ht : (i 0 : ℕ) / 256 < cfg0.N := lt_of_lt_of_eq (show (i 0 : ℕ) / 256 < 32 by omega) hN.symm
    obtain ⟨-, -, -, -, e4, e5⟩ := idx_facts0 ⟨(i 0 : ℕ) / 256, ht⟩
    refine ⟨⟨(i 0 : ℕ) / 256, ht⟩, flush0_2 _, ?_⟩
    show i ∈ ((View.whole main_v0).slice (win0_2.rect ⟨(i 0 : ℕ) / 256, ht⟩)).set
    rw [View.set_slice_whole, Rect.mem_set_unit]
    intro a
    match a with
    | ⟨0, _⟩ =>
      show win0_2.index ⟨(i 0 : ℕ) / 256, ht⟩ (0 : Fin 2) * 256 ≤ (i 0 : ℕ) ∧ (i 0 : ℕ) < win0_2.index ⟨(i 0 : ℕ) / 256, ht⟩ (0 : Fin 2) * 256 + 256
      rw [e4]; show (i 0 : ℕ) / 256 * 256 ≤ (i 0 : ℕ) ∧ (i 0 : ℕ) < (i 0 : ℕ) / 256 * 256 + 256; omega
    | ⟨1, _⟩ =>
      show win0_2.index ⟨(i 0 : ℕ) / 256, ht⟩ (1 : Fin 2) * 1 ≤ (i 1 : ℕ) ∧ (i 1 : ℕ) < win0_2.index ⟨(i 0 : ℕ) / 256, ht⟩ (1 : Fin 2) * 1 + 1
      rw [e5]; omega

end Cert.KernelIdeal.Hand

end
-- ==== Proof.KVal1.lean ====
/-
  The pair stage's accumulator as a recursion of the body's arithmetic: at the first grid point it becomes
  `k1_pay2` of the four input blocks over the cleared accumulator `k1_pay1`; at every later point `k1_pay2` of
  that point's blocks over what the point before left; and the output block receives, at the last point, the
  accumulator's final value, which the one write-back then leaves in the 1×1 result array.
-/
import proofs.«156872_j69672959475957_1_alg».proof.Proof.KI.R1
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The first point leaves the tile's sum added to the cleared accumulator. -/
theorem soutA_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 : Vec F S1024x1 .f32) (x1 : Vec F S1x1024 .f32) (x2 : Vec F S1024x1 .f32) (x3 : Vec F S1x1024 .f32) :
    sout1_A_0 c i arg2 harg2 arg3 harg3 arg4 harg4 arg5 harg5 arg6 harg6 arg7 harg7 hc0 hc1 x0 x1 x2 x3 = k1_pay2 x0 x1 x2 x3 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  try sl_unfold_words
  rw [View.canon_cons_unit_zero hz, View.readCov_unit_zero (S := S1x1) _ hz]
  simp only [View.readAt_eq_ld, harg2.read_unread, harg3.read_unread, harg4.read_unread, harg5.read_unread,
    View.ld_unit_zero (S := S1024x1) hz, View.ld_unit_zero (S := S1x1024) hz]

/-- A middle point leaves the tile's sum added to what the accumulator held. -/
theorem soutB_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 : Vec F S1024x1 .f32) (x1 : Vec F S1x1024 .f32) (x2 : Vec F S1024x1 .f32) (x3 : Vec F S1x1024 .f32) (xs0 : Vec F S1x1 .f32) :
    sout1_B_0 c i arg2 harg2 arg3 harg3 arg4 harg4 arg5 harg5 arg6 harg6 arg7 harg7 hc0 hc1 x0 x1 x2 x3 xs0 = k1_pay2 x0 x1 x2 x3 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  try sl_unfold_words
  rw [View.canon_unit_zero hz]
  simp only [View.readAt_eq_ld, harg2.read_unread, harg3.read_unread, harg4.read_unread, harg5.read_unread, harg7.read_unread,
    View.ld_unit_zero (S := S1024x1) hz, View.ld_unit_zero (S := S1x1024) hz, View.ld_unit_zero (S := S1x1) hz]

/-- The last point leaves the same in the accumulator, -/
theorem soutC_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S1024x1 .f32) (x1 : Vec F S1x1024 .f32) (x2 : Vec F S1024x1 .f32) (x3 : Vec F S1x1024 .f32) (xs0 : Vec F S1x1 .f32) :
    sout1_C_0 c i arg2 harg2 arg3 harg3 arg4 harg4 arg5 harg5 arg6 harg6 arg7 harg7 hc0 hc1 x0 x1 x2 x3 xs0 = k1_pay2 x0 x1 x2 x3 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  try sl_unfold_words
  rw [View.canon_unit_zero hz]
  simp only [View.readAt_eq_ld, harg2.read_unread, harg3.read_unread, harg4.read_unread, harg5.read_unread, harg7.read_unread,
    View.ld_unit_zero (S := S1024x1) hz, View.ld_unit_zero (S := S1x1024) hz, View.ld_unit_zero (S := S1x1) hz]

/-- and copies it into the output block. -/
theorem outC_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S1024x1 .f32) (x1 : Vec F S1x1024 .f32) (x2 : Vec F S1024x1 .f32) (x3 : Vec F S1x1024 .f32) (xs0 : Vec F S1x1 .f32) :
    out1_C_4 c i arg2 harg2 arg3 harg3 arg4 harg4 arg5 harg5 arg6 harg6 arg7 harg7 hc0 hc1 x0 x1 x2 x3 xs0 = k1_pay2 x0 x1 x2 x3 xs0 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  try sl_unfold_words
  rw [View.canon_unit_zero hz, View.readCov_unit_zero (S := S1x1) _ hz]
  simp only [View.readAt_eq_ld, harg2.read_unread, harg3.read_unread, harg4.read_unread, harg5.read_unread, harg7.read_unread,
    View.ld_unit_zero (S := S1024x1) hz, View.ld_unit_zero (S := S1x1024) hz, View.ld_unit_zero (S := S1x1) hz]

variable (V : (c : Dev nD) → (b : Ref sig .tc) → Buf (Elt F) ((c : Thread nD τ).loc b))

/-- The body's arithmetic at point `t`: the tile's sum added to `xs`. -/
def step1 (c : Dev nD) (t : Fin cfg1.N) (xs : Vec F S1x1 .f32) : Vec F S1x1 .f32 :=
  k1_pay2 (iblk1 V c 0 t) (iblk1 V c 1 t) (iblk1 V c 2 t) (iblk1 V c 3 t) xs

/-- The accumulator after the first point. -/
theorem acc_zero (c : Dev nD) (t : Fin cfg1.N) (h0 : t.val = 0) :
    (outsAt1 V c t.val t.isLt).2 = step1 V c t (k1_pay1 (F := F)) := by
  have h1 : ¬t.val = 63 := by omega
  rw [outsAt1_A V c t h0 h1]
  exact soutA_eq c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)

/-- The accumulator after any later point, from the one before. -/
theorem acc_succ (c : Dev nD) (t : Fin cfg1.N) (h0 : ¬t.val = 0) :
    (outsAt1 V c t.val t.isLt).2
      = step1 V c t (outsAt1 V c (t.val - 1) (Nat.lt_of_le_of_lt (Nat.sub_le _ _) t.isLt)).2 := by
  by_cases h1 : t.val = 63
  · rw [outsAt1_C V c t h0 h1]
    exact soutC_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) _
  · rw [outsAt1_B V c t h0 h1]
    exact soutB_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) _

/-- At the last point the output block holds the accumulator's final value. -/
theorem out_last (c : Dev nD) (t : Fin cfg1.N) (h1 : t.val = 63) :
    (outsAt1 V c t.val t.isLt).1 = (outsAt1 V c t.val t.isLt).2 := by
  have h0 : ¬t.val = 0 := by omega
  rw [outsAt1_C V c t h0 h1]
  dsimp only
  rw [show out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2 = _ from outC_eq c _ _ _ _ _ _ _ _ _ _ _ _ _ _ _ _ _ _ _ _,
    show sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2 = _ from soutC_eq c _ _ _ _ _ _ _ _ _ _ _ _ _ _ _ _ _ _ _ _]

/-- The last grid point. -/
abbrev tLast : Fin cfg1.N := ⟨63, by rw [show cfg1.N = 64 from N_1]; decide⟩

/-- The one write-back, at the last point, writes the output block, which is the whole 1×1 array. -/
theorem flushed1_eq (c : Dev nD) (t : Fin cfg1.N) (hf : (cfg1.win 4).flush t = true) :
    (dat1 V c).flushed 4 t = ((cfg1.win 4).blk t).view.read (Elt F) ((outsAt1 V c tLast.val tLast.isLt).1) := by
  have hN : cfg1.N = 64 := N_1
  have h1 : t.val = 63 := by have := (flush1_4 t).mp hf; have := t.isLt; omega
  obtain rfl : t = tLast := Fin.ext h1
  show (cfg1.win 4).cut (grid1.coords tLast) ((dat1 V c).after 4 tLast) = _
  rw [after1_4]
  have hz' : (fun a => win1_4.index tLast a * main_v13.ty.shape.size a) = fun _ => 0 := funext fun a => by fin_cases a <;> decide
  exact (Memref.read_access_unit_zero (Elt F) main_v13 hz' (fun a => by rw [congrFun hz' a]; simp) _).symm

/-- So the 1×1 result array ends holding the accumulator's final value. -/
theorem final1 (c : Dev nD) : (dat1 V c).arrAt 4 cfg1.N = (outsAt1 V c tLast.val tLast.isLt).2 := by
  rw [← out_last V c tLast rfl]
  exact (dat1 V c).arrAt_eq_of_cover 4 _ (flushed1_eq V c) fun i =>
    ⟨tLast, (flush1_4 tLast).mpr rfl, by
      show i ∈ ((View.whole main_v13).slice (win1_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 1 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 1 from by decide +kernel]; omega⟩

end Cert.KernelIdeal.Hand

end
-- ==== Proof.SpecTiles.lean ====
/-
  The sum over all pairs as a sum over the 64 grid points n = 0 … 63 of each point's tile (tile row n / 8, tile
  column n % 8), and the number of counted pairs as a real.
-/
import proofs.«156872_j69672959475957_1_alg».proof.Proof.Spec

noncomputable section

namespace Cert.Spec

open Idealize.ShloMosaic

/-- Row `a` and column `b` of grid point `n`'s tile (total in `n`: the tile row is taken modulo 8). -/
def rowN (n : ℕ) (a : Fin 1024) : Fin 8192 :=
  ⟨1024 * (n / 8 % 8) + a.val, by have := Nat.mod_lt (n / 8) (by decide : 0 < 8); have := a.isLt; omega⟩
def colN (n : ℕ) (b : Fin 1024) : Fin 8192 :=
  ⟨1024 * (n % 8) + b.val, by have := Nat.mod_lt n (by decide : 0 < 8); have := b.isLt; omega⟩

/-- Grid point `n`'s tile sum. -/
def tileN (d : Fin 8192 → EReal) (T : Fin 8192 → BitVec 32) (n : ℕ) : EReal :=
  ∑ a : Fin 1024, ∑ b : Fin 1024, term d T (rowN n a) (colN n b)

/-- The sum over all pairs is the sum of the 64 tile sums. -/
theorem num_eq_tiles (d : Fin 8192 → EReal) (T : Fin 8192 → BitVec 32) :
    num d T = ∑ n ∈ Finset.range 64, tileN d T n := by
  unfold num
  rw [sum_pairs_eq_tiles, Finset.sum_range]
  refine Finset.sum_congr rfl fun t _ => ?_
  unfold tileN
  refine Finset.sum_congr rfl fun a _ => Finset.sum_congr rfl fun b _ => ?_
  refine congrArg₂ (term d T) (Fin.ext ?_) (Fin.ext ?_)
  · show 1024 * (t.val / 8) + a.val = 1024 * (t.val / 8 % 8) + a.val
    have := t.isLt; omega
  · rfl

export Cert.LibTiles (running_sum_lt)

/-- The number of counted pairs: (number labelled 1) · (number labelled 0), as a real. -/
theorem den_eq_card (T : Fin 8192 → BitVec 32) :
    den T = ((((Finset.univ.filter fun p => posb T p = 1#1).card * (Finset.univ.filter fun q => negb T q = 1#1).card : ℕ) : ℝ) : EReal) := by
  unfold den
  rw [sum_ind_eq_card, sum_ind_eq_card, ← EReal.coe_mul]
  push_cast
  rfl

end Cert.Spec

end
-- ==== Proof.KVal.lean ====
/-
  The whole kernel program's result on the extended reals is the loss of the specification.
  The distance stage leaves the distances d; the host operations leave the two 0/1 masks as a column and a row,
  the distances also as a row, and the product of the two mask sums; at grid point n the pair stage's four blocks
  are rows 1024·(n / 8) … of d and of the first mask and columns 1024·(n % 8) … of d and of the second mask, so the
  accumulator's step adds that tile's sum; after the 64 points the accumulator is the sum over all pairs, and the
  last host operation divides it by the product of the mask sums.
-/
import proofs.«156872_j69672959475957_1_alg».proof.Proof.KI.Run
import proofs.«156872_j69672959475957_1_alg».proof.Proof.KVal0
import proofs.«156872_j69672959475957_1_alg».proof.Proof.KVal1
import proofs.«156872_j69672959475957_1_alg».proof.Proof.SpecTiles
import Idealize.ShloMosaic.Lib.StableHlo.Run
import Idealize.ShloMosaic.Lib.ValueLayout
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-! ## The pair stage's blocks, at any entry contents -/

section Blocks
variable (V : (c : Dev nD) → (b : Ref sig .tc) → Buf (Elt Ideal) ((c : Thread nD τ).loc b))

/-- The printed index maps over the 8 × 8 grid: the column windows follow the tile row n / 8, the row windows the
    tile column n % 8. -/
theorem idx_facts1 : ∀ t : Fin cfg1.N, win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = 0
    ∧ win1_3.index t (0 : Fin 2) = 0 ∧ win1_3.index t (1 : Fin 2) = t.val % 8 :=
  (by decide +kernel : ∀ t : Fin grid1.N, _)

theorem t_lt (t : Fin cfg1.N) : t.val < 64 := lt_of_lt_of_eq t.isLt (show cfg1.N = 64 from N_1)

theorem iblk1_0_apply (c : Dev nD) (t : Fin cfg1.N) (a : Fin 1024) :
    (iblk1 V c 0 t : Vec Ideal S1024x1 .f32) (ix2 a (0 : Fin 1))
      = (V c main_v0 : S8192x1.Idx → EReal) (ix2 (Cert.Spec.rowN t.val a) (0 : Fin 1)) := by
  obtain ⟨e0, e1, -⟩ := idx_facts1 t
  have := t_lt t
  unfold iblk1
  rw [View.read_apply]
  show (V c main_v0 : S8192x1.Idx → EReal) _ = (V c main_v0 : S8192x1.Idx → EReal) _
  refine congrArg _ (funext fun x => Fin.ext ?_)
  match x with
  | ⟨0, _⟩ => show win1_0.index t (0 : Fin 2) * 1024 + 1 * a.val = 1024 * (t.val / 8 % 8) + a.val; rw [e0]; omega
  | ⟨1, _⟩ => show win1_0.index t (1 : Fin 2) * 1 + 1 * 0 = 0; rw [e1]

theorem iblk1_1_apply (c : Dev nD) (t : Fin cfg1.N) (b : Fin 1024) :
    (iblk1 V c 1 t : Vec Ideal S1x1024 .f32) (ix2 (0 : Fin 1) b)
      = (V c main_v10 : S1x8192.Idx → EReal) (ix2 (0 : Fin 1) (Cert.Spec.colN t.val b)) := by
  obtain ⟨-, -, e2, e3, -⟩ := idx_facts1 t
  unfold iblk1
  rw [View.read_apply]
  show (V c main_v10 : S1x8192.Idx → EReal) _ = (V c main_v10 : S1x8192.Idx → EReal) _
  refine congrArg _ (funext fun x => Fin.ext ?_)
  match x with
  | ⟨0, _⟩ => show win1_1.index t (0 : Fin 2) * 1 + 1 * 0 = 0; rw [e2]
  | ⟨1, _⟩ => show win1_1.index t (1 : Fin 2) * 1024 + 1 * b.val = 1024 * (t.val % 8) + b.val; rw [e3]; omega

theorem iblk1_2_apply (c : Dev nD) (t : Fin cfg1.N) (a : Fin 1024) :
    (iblk1 V c 2 t : Vec Ideal S1024x1 .f32) (ix2 a (0 : Fin 1))
      = (V c main_v11 : S8192x1.Idx → EReal) (ix2 (Cert.Spec.rowN t.val a) (0 : Fin 1)) := by
  obtain ⟨-, -, -, -, e4, e5, -⟩ := idx_facts1 t
  have := t_lt t
  unfold iblk1
  rw [View.read_apply]
  show (V c main_v11 : S8192x1.Idx → EReal) _ = (V c main_v11 : S8192x1.Idx → EReal) _
  refine congrArg _ (funext fun x => Fin.ext ?_)
  match x with
  | ⟨0, _⟩ => show win1_2.index t (0 : Fin 2) * 1024 + 1 * a.val = 1024 * (t.val / 8 % 8) + a.val; rw [e4]; omega
  | ⟨1, _⟩ => show win1_2.index t (1 : Fin 2) * 1 + 1 * 0 = 0; rw [e5]

theorem iblk1_3_apply (c : Dev nD) (t : Fin cfg1.N) (b : Fin 1024) :
    (iblk1 V c 3 t : Vec Ideal S1x1024 .f32) (ix2 (0 : Fin 1) b)
      = (V c main_v12 : S1x8192.Idx → EReal) (ix2 (0 : Fin 1) (Cert.Spec.colN t.val b)) := by
  obtain ⟨-, -, -, -, -, -, e6, e7⟩ := idx_facts1 t
  unfold iblk1
  rw [View.read_apply]
  show (V c main_v12 : S1x8192.Idx → EReal) _ = (V c main_v12 : S1x8192.Idx → EReal) _
  refine congrArg _ (funext fun x => Fin.ext ?_)
  match x with
  | ⟨0, _⟩ => show win1_3.index t (0 : Fin 2) * 1 + 1 * 0 = 0; rw [e6]
  | ⟨1, _⟩ => show win1_3.index t (1 : Fin 2) * 1024 + 1 * b.val = 1024 * (t.val % 8) + b.val; rw [e7]; omega

end Blocks

/-! ## The host operations between the two stages -/

variable (m : (ℓ : Loc nD τ sig) → Buf (Elt Ideal) ℓ) (ρ : Dev nD → PrngReg)

/-- The arguments by coordinates. -/
abbrev mA (c : Dev nD) : Fin 8192 → Fin 4096 → EReal := argA (V0 m ρ) c
abbrev mB (c : Dev nD) : Fin 8192 → Fin 4096 → EReal := argB (V0 m ρ) c
def mT (c : Dev nD) : Fin 8192 → BitVec 32 := fun p => (V0 m ρ c main_arg2 : S8192.Idx → BitVec 32) (ix1 p)
abbrev mD (c : Dev nD) : Fin 8192 → EReal := Cert.Spec.dist (mA m ρ c) (mB m ρ c)

/-- The distance stage leaves the distances. -/
theorem V1_v0 (c : Dev nD) : (V1 m ρ c main_v0 : S8192x1.Idx → EReal) = distArr (V0 m ρ) c :=
  (W1_arr m ρ c 2).trans (final0 (V0 m ρ) c)

theorem V1_arg2 (c : Dev nD) : V1 m ρ c main_arg2 = V0 m ρ c main_arg2 := W1_of_ne m ρ c main_arg2 (by decide)

theorem distArr_apply (c : Dev nD) (r : Fin 8192) : distArr (V0 m ρ) c (ix2 r (0 : Fin 1)) = mD m ρ c r := rfl

/-- The two masks as arrays of 0/1 reals. -/
def posArr (c : Dev nD) : S8192.Idx → EReal :=
  uitofp (F := Ideal) .f32 (cmpi .eq (W1 m ρ c (Proc.devRef .tc main_arg2)) (broadcastInDim S8192 ![] bcast_S_S8192 (constantI S_ 32 1#32)))
def negArr (c : Dev nD) : S8192.Idx → EReal :=
  uitofp (F := Ideal) .f32 (cmpi .eq (W1 m ρ c (Proc.devRef .tc main_arg2)) (broadcastInDim S8192 ![] bcast_S_S8192 (constantI S_ 32 0#32)))

theorem posArr_apply (c : Dev nD) (p : Fin 8192) : posArr m ρ c (ix1 p) = Cert.Spec.ind (Cert.Spec.posb (mT m ρ c) p) := by
  unfold posArr mT
  rw [show W1 m ρ c (Proc.devRef .tc main_arg2) = V0 m ρ c main_arg2 from V1_arg2 m ρ c]
  rfl
theorem negArr_apply (c : Dev nD) (q : Fin 8192) : negArr m ρ c (ix1 q) = Cert.Spec.ind (Cert.Spec.negb (mT m ρ c) q) := by
  unfold negArr mT
  rw [show W1 m ρ c (Proc.devRef .tc main_arg2) = V0 m ρ c main_arg2 from V1_arg2 m ρ c]
  rfl

theorem V2_v0 (c : Dev nD) : (V2 m ρ c main_v0 : S8192x1.Idx → EReal) = distArr (V0 m ρ) c := by
  refine Eq.trans ?_ (V1_v0 m ρ c)
  show StableHlo.after hostOps1 (W1 m ρ c) (Proc.devRef .tc main_v0) = _
  after_results <;> rfl
theorem V2_v10 (c : Dev nD) : (V2 m ρ c main_v10 : S1x8192.Idx → EReal)
    = transpose S1x8192 [1, 0] (distArr (V0 m ρ) c) transposes_S8192x1_S1x8192_1_0 := by
  rw [← V1_v0 m ρ c]
  show StableHlo.after hostOps1 (W1 m ρ c) (Proc.devRef .tc main_v10) = _
  after_results <;> rfl
theorem V2_v11 (c : Dev nD) : (V2 m ρ c main_v11 : S8192x1.Idx → EReal)
    = shapeCast S8192x1 (posArr m ρ c) shapeCasts_S8192_S8192x1 := by
  unfold posArr
  show StableHlo.after hostOps1 (W1 m ρ c) (Proc.devRef .tc main_v11) = _
  after_results <;> rfl
theorem V2_v12 (c : Dev nD) : (V2 m ρ c main_v12 : S1x8192.Idx → EReal)
    = shapeCast S1x8192 (negArr m ρ c) shapeCasts_S8192_S1x8192 := by
  unfold negArr
  show StableHlo.after hostOps1 (W1 m ρ c) (Proc.devRef .tc main_v12) = _
  after_results <;> rfl
theorem V2_v9 (c : Dev nD) : (V2 m ρ c main_v9 : S_.Idx → EReal)
    = mulf (Host.reduceAdd (posArr m ρ c) (constant (F := Ideal) S_ .f32 0x00000000#32) reducesTo_S8192_S_d0 h_S_)
        (Host.reduceAdd (negArr m ρ c) (constant (F := Ideal) S_ .f32 0x00000000#32) reducesTo_S8192_S_d0 h_S_) := by
  unfold posArr negArr
  show StableHlo.after hostOps1 (W1 m ρ c) (Proc.devRef .tc main_v9) = _
  after_results <;> rfl

/-- A host sum of an [8192] array from 0 is the sum of its entries. -/
theorem sum8192 (x : S8192.Idx → EReal) (i : S_.Idx) :
    Host.reduceAdd (F := Ideal) (φ := .f32) x (constant (F := Ideal) S_ .f32 0x00000000#32) reducesTo_S8192_S_d0 h_S_ i = ∑ k : Fin 8192, x (ix1 k) := by
  rw [hostReduceAdd_apply, Ideal.hostReduceAdd_total reducesTo_S8192_S_d0 (fun b => b.elim0)]
  show Ideal.ofBits .f32 0x00000000#32 + _ = _
  rw [Ideal.ofBits_zero_f32, zero_add]
  exact Cert.LibTiles.sum_idx1 x

/-- The product of the two mask sums is the number of counted pairs. -/
theorem V2_v9_apply (c : Dev nD) (i : S_.Idx) : (V2 m ρ c main_v9 : S_.Idx → EReal) i = Cert.Spec.den (mT m ρ c) := by
  rw [V2_v9, mulf_apply, sum8192, sum8192]
  unfold Cert.Spec.den
  simp only [posArr_apply, negArr_apply]

/-! ## The pair stage's step is the tile's sum -/

theorem tile_eq (c : Dev nD) (t : Fin cfg1.N) (a b : Fin 1024) :
    Cert.KernelIdeal.PayIdeal.tileTerm (iblk1 (V2 m ρ) c 0 t) (iblk1 (V2 m ρ) c 1 t) (iblk1 (V2 m ρ) c 2 t) (iblk1 (V2 m ρ) c 3 t) a b
      = Cert.Spec.term (mD m ρ c) (mT m ρ c) (Cert.Spec.rowN t.val a) (Cert.Spec.colN t.val b) := by
  unfold Cert.KernelIdeal.PayIdeal.tileTerm
  rw [iblk1_0_apply (V2 m ρ) c t a, iblk1_1_apply (V2 m ρ) c t b, iblk1_2_apply (V2 m ρ) c t a, iblk1_3_apply (V2 m ρ) c t b,
    V2_v0, V2_v10, V2_v11, V2_v12, transpose_ix2_apply, distArr_apply, distArr_apply,
    Cert.LibColumn.shapeCast_a_a1_apply, shapeCast_a_1a_apply, posArr_apply, negArr_apply]
  rfl

theorem step_apply (c : Dev nD) (t : Fin cfg1.N) (xs : Vec Ideal S1x1 .f32) :
    step1 (V2 m ρ) c t xs (ix2 (0 : Fin 1) (0 : Fin 1))
      = xs (ix2 (0 : Fin 1) (0 : Fin 1)) + Cert.Spec.tileN (mD m ρ c) (mT m ρ c) t.val := by
  unfold step1
  refine (Cert.KernelIdeal.PayIdeal.pay2_apply _ _ _ _ xs).trans ?_
  unfold Cert.Spec.tileN
  exact congrArg₂ (· + ·) rfl (Finset.sum_congr rfl fun a _ => Finset.sum_congr rfl fun b _ => tile_eq m ρ c t a b)

/-- The accumulator after point n, as a number (0 past the grid). -/
def accN (c : Dev nD) (n : ℕ) : EReal :=
  if hn : n < cfg1.N then (outsAt1 (V2 m ρ) c n hn).2 (ix2 (0 : Fin 1) (0 : Fin 1)) else 0

/-- After the last point the accumulator is the sum over all pairs. -/
theorem acc_last (c : Dev nD) : accN m ρ c 63 = Cert.Spec.num (mD m ρ c) (mT m ρ c) := by
  have hN : cfg1.N = 64 := N_1
  have h := Cert.Spec.running_sum_lt 64 (0 : EReal) (Cert.Spec.tileN (mD m ρ c) (mT m ρ c)) (accN m ρ c)
    (by
      unfold accN
      rw [dif_pos (by omega : 0 < cfg1.N)]
      rw [acc_zero (V2 m ρ) c ⟨0, by omega⟩ rfl, step_apply, Cert.KernelIdeal.PayIdeal.pay1_apply])
    (fun n hn => by
      unfold accN
      rw [dif_pos (by omega : n + 1 < cfg1.N), dif_pos (by omega : n < cfg1.N)]
      rw [acc_succ (V2 m ρ) c ⟨n + 1, by omega⟩ (Nat.succ_ne_zero n), step_apply]
      rfl) 63 (by decide)
  rw [h, zero_add, Cert.Spec.num_eq_tiles]

/-! ## The result -/

/-- The kernel program's result buffer at the end of the fold is the loss. -/
theorem result_eq (c : Dev nD) (i : S_.Idx) :
    (W4 m ρ c (Proc.devRef .tc main_v15) : S_.Idx → EReal) i = Cert.Spec.loss (mA m ρ c) (mB m ρ c) (mT m ρ c) := by
  have e : (W4 m ρ c (Proc.devRef .tc main_v15) : S_.Idx → EReal)
      = Host.divf (F := Ideal) (φ := .f32) (shapeCast S_ (W3 m ρ c (Proc.devRef .tc main_v13) : S1x1.Idx → EReal) shapeCasts_S1x1_S_)
          (W3 m ρ c (Proc.devRef .tc main_v9) : S_.Idx → EReal) := by
    show StableHlo.after hostOps2 (W3 m ρ c) (Proc.devRef .tc main_v15) = _
    after_results <;> rfl
  rw [e]
  show FloatOps.hostDivf (F := Ideal) (φ := .f32) _ _ = _
  unfold Cert.Spec.loss
  refine congrArg₂ _ ?_ ?_
  · refine (shapeCast_apply _ shapeCasts_S1x1_S_ i (ix2 (0 : Fin 1) (0 : Fin 1)) rfl).trans ?_
    rw [show (W3 m ρ c (Proc.devRef .tc main_v13) : S1x1.Idx → EReal) = (outsAt1 (V2 m ρ) c tLast.val tLast.isLt).2 from
      (W3_arr m ρ c 4).trans (final1 (V2 m ρ) c)]
    have h := acc_last m ρ c
    unfold accN at h
    rw [dif_pos tLast.isLt] at h
    exact h
  · rw [show W3 m ρ c (Proc.devRef .tc main_v9) = V2 m ρ c main_v9 from W3_of_ne m ρ c main_v9 (by decide)]
    exact V2_v9_apply m ρ c i

end Cert.KernelIdeal.Hand

end
-- ==== Proof.RefVal.lean ====
/-
  The reference program's result on the extended reals is the loss of the specification: its per-sample
  distances are the specification's, its sum over the 8192 × 8192 index pairs of "the term where both masks hold,
  else 0" is the sum of the weighted terms, and its count — a 32-bit sum of 0/1 words over all pairs, read as a
  signed integer — is (number labelled 1) · (number labelled 0), far below 2³¹.
-/
import proofs.«156872_j69672959475957_1_alg».proof.Proof.Gen.ReferenceIdeal.Read
import proofs.«156872_j69672959475957_1_alg».proof.Proof.SpecTiles
import Idealize.ShloMosaic.Lib.ValueIdx
import Idealize.ShloMosaic.Lib.IndicatorCount
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx

/-- An input by row and column, and the labels by sample. -/
def rdA (x : (⟨S8192x4096, .f32⟩ : BufTy).Contents (Elt Ideal)) : Fin 8192 → Fin 4096 → EReal := fun r k => x (ix2 r k)
def rdT (x2 : (⟨S8192, .i32⟩ : BufTy).Contents (Elt Ideal)) : Fin 8192 → BitVec 32 := fun p => x2 (ix1 p)

variable (x0 x1 : (⟨S8192x4096, .f32⟩ : BufTy).Contents (Elt Ideal)) (x2 : (⟨S8192, .i32⟩ : BufTy).Contents (Elt Ideal))

/-- The reference's distance of sample r is the specification's. -/
theorem v5_apply (r : Fin 8192) : val_main_v5 (F := Ideal) x0 x1 (ix1 r) = Cert.Spec.dist (rdA x0) (rdA x1) r := by
  rw [val_main_v5_apply, val_main_v3_apply, val_main_v2_apply, val_main_v4_apply, val_main_cst_0_apply, val_main_cst_apply]
  simp only [Ideal.addf_def, Ideal.hostUnary_sqrt_def, Ideal.ofBits_def, Ideal.ofBits_zero_f32, zero_add]
  unfold Cert.Spec.dist
  refine congrArg₂ (· + ·) (congrArg _ (Finset.sum_congr rfl fun k _ => ?_)) rfl
  have hi : idx_main_v2 (ix1 r) k = ix2 r k := funext fun a => Fin.ext (by match a with | ⟨0, _⟩ => rfl | ⟨1, _⟩ => rfl)
  rw [val_main_v1_apply, val_main_v0_apply, hi]
  rfl

/-- The reference's two masks at a pair. -/
theorem v12_apply (p q : Fin 8192) : val_main_v12 (F := Ideal) x2 (ix2 p q) = Cert.Spec.posb (rdT x2) p := by
  rw [val_main_v12_apply, val_main_v10_apply, val_main_v7_apply, val_main_v6_apply, val_main_c_apply]
  have h : idx_main_v10 (idx_main_v12 (ix2 p q)) = ix1 p := funext fun a => Fin.ext (by match a with | ⟨0, _⟩ => rfl)
  rw [h]
  rfl
theorem v13_apply (p q : Fin 8192) : val_main_v13 (F := Ideal) x2 (ix2 p q) = Cert.Spec.negb (rdT x2) q := by
  rw [val_main_v13_apply, val_main_v11_apply, val_main_v9_apply, val_main_v8_apply, val_main_c_1_apply]
  have h : idx_main_v11 (idx_main_v13 (ix2 p q)) = ix1 q := funext fun a => Fin.ext (by match a with | ⟨0, _⟩ => rfl)
  rw [h]
  rfl

/-- The reference's margin term at a pair. -/
theorem v23_apply (p q : Fin 8192) :
    val_main_v23 (F := Ideal) x0 x1 (ix2 p q) = Cert.Spec.hinge (Cert.Spec.dist (rdA x0) (rdA x1)) p q := by
  rw [val_main_v23_apply, val_main_v21_apply, val_main_v19_apply, val_main_v17_apply, val_main_v18_apply,
    val_main_v15_apply, val_main_v16_apply, val_main_v20_apply, val_main_cst_2_apply, val_main_v22_apply, val_main_cst_3_apply]
  have h1 : idx_main_v15 (idx_main_v17 (ix2 p q)) = ix1 p := funext fun a => Fin.ext (by match a with | ⟨0, _⟩ => rfl)
  have h2 : idx_main_v16 (idx_main_v18 (ix2 p q)) = ix1 q := funext fun a => Fin.ext (by match a with | ⟨0, _⟩ => rfl)
  rw [h1, h2, v5_apply, v5_apply]
  simp only [Ideal.addf_def, Ideal.subf_def, Ideal.maximumf_def, Ideal.ofBits_def, Ideal.ofBits_zero_f32]
  rfl

/-- The reference's summand at a pair: the weighted term. -/
theorem v27_apply (p q : Fin 8192) :
    val_main_v27 (F := Ideal) x0 x1 x2 (ix2 p q) = Cert.Spec.term (Cert.Spec.dist (rdA x0) (rdA x1)) (rdT x2) p q := by
  rw [val_main_v27_apply, val_main_v14_apply, v12_apply, v13_apply, v23_apply, val_main_call0_v1_apply, val_main_call0_v0_apply, val_main_cst_5_apply]
  simp only [Ideal.ofBits_def, Ideal.ofBits_zero_f32]
  exact Cert.Spec.select_andi_eq_mul _ _ _

/-- The reference's sum over all pairs. -/
theorem v28_apply (i : S_.Idx) :
    val_main_v28 (F := Ideal) x0 x1 x2 i = Cert.Spec.num (Cert.Spec.dist (rdA x0) (rdA x1)) (rdT x2) := by
  rw [val_main_v28_apply, val_main_cst_6_apply]
  simp only [Ideal.ofBits_def, Ideal.ofBits_zero_f32, zero_add]
  rw [sum_idx2]
  unfold Cert.Spec.num
  exact Finset.sum_congr rfl fun p _ => Finset.sum_congr rfl fun q _ => v27_apply x0 x1 x2 p q

/-! ## The count -/

/-- The number of index pairs at which both masks hold is the product of the two counts. -/
theorem card_pairs :
    (Finset.univ.filter fun j : S8192x8192.Idx => val_main_v14 (F := Ideal) x2 j = 1#1).card
      = (Finset.univ.filter fun p => Cert.Spec.posb (rdT x2) p = 1#1).card * (Finset.univ.filter fun q => Cert.Spec.negb (rdT x2) q = 1#1).card := by
  classical
  rw [Finset.card_filter, Finset.card_filter, Finset.card_filter, sum_idx2, Finset.sum_mul_sum]
  refine Finset.sum_congr rfl fun p _ => Finset.sum_congr rfl fun q _ => ?_
  rw [val_main_v14_apply, v12_apply, v13_apply]
  by_cases hp : Cert.Spec.posb (rdT x2) p = 1#1 <;> by_cases hq : Cert.Spec.negb (rdT x2) q = 1#1 <;>
    simp [Cert.LibIndicator.andi_eq_one_iff, hp, hq]

/-- The reference's 32-bit count is the number of index pairs at which both masks hold, as a word. -/
theorem v25_apply (i : S_.Idx) :
    val_main_v25 (F := Ideal) x2 i = BitVec.ofNat 32 (Finset.univ.filter fun j : S8192x8192.Idx => val_main_v14 (F := Ideal) x2 j = 1#1).card := by
  unfold val_main_v25
  rw [Host.reduce_eq_fold]
  have hf : (Finset.univ.filter fun j : S8192x8192.Idx => reducesTo_S8192x8192_S_d0_1.drop j = i) = Finset.univ :=
    Finset.filter_true_of_mem fun j _ => funext fun b => b.elim0
  rw [hf]
  exact IndicatorCount.fold_addi_setWidth_eq_card (w := 32) (fun j => val_main_v14 (F := Ideal) x2 j) Finset.univ

/-- The reference's count as a float is the specification's number of counted pairs. -/
theorem v26_apply (i : S_.Idx) : val_main_v26 (F := Ideal) x2 i = Cert.Spec.den (rdT x2) := by
  rw [val_main_v26_apply, v25_apply, card_pairs, Cert.Spec.den_eq_card]
  have h1 : (Finset.univ.filter fun p => Cert.Spec.posb (rdT x2) p = 1#1).card ≤ 8192 :=
    (Finset.card_filter_le _ _).trans (by simp)
  have h2 : (Finset.univ.filter fun q => Cert.Spec.negb (rdT x2) q = 1#1).card ≤ 8192 :=
    (Finset.card_filter_le _ _).trans (by simp)
  have hlt : (Finset.univ.filter fun p => Cert.Spec.posb (rdT x2) p = 1#1).card * (Finset.univ.filter fun q => Cert.Spec.negb (rdT x2) q = 1#1).card < 2 ^ 31 :=
    lt_of_le_of_lt (Nat.mul_le_mul h1 h2) (by norm_num)
  show ((((BitVec.ofNat 32 _).toInt : ℤ) : ℝ) : EReal) = _
  rw [Cert.LibIndicator.toInt_ofNat_small _ hlt]
  push_cast
  rfl

/-- THE REFERENCE'S RESULT is the loss. -/
theorem result_eq (i : S_.Idx) :
    val_main_v29 (F := Ideal) x0 x1 x2 i = Cert.Spec.loss (rdA x0) (rdA x1) (rdT x2) := by
  rw [val_main_v29_apply, v28_apply, v26_apply]
  rfl

end Cert.ReferenceIdeal.RefValue

end
-- ==== Proof.lean ====
/-
  The margin ranking loss over all (label-1, label-0) pairs of 8192 samples, computed by two kernel launches —
  per-sample distances d r = √(Σ_k (A r k − B r k)²) + ε over row blocks of 256, then the sum of
  max (d p − d q + margin, 0) over the counted pairs accumulated tile by tile over an 8 × 8 grid of 1024 × 1024
  tiles — and divided by (number labelled 1) · (number labelled 0), against the reference that forms the whole
  8192 × 8192 table, sums it where both masks hold, and divides by the 32-bit count of such pairs.

  On the extended reals both are one number: the tiles partition the pairs and addition is commutative and
  associative (no finiteness is needed for the regrouping); "the term where both masks hold, else 0" is the term
  times the two 0/1 indicators; and the count of pairs, at most 2²⁶, survives the 32-bit sum and its signed
  reading and is the product of the two counts.

  The three programs run to the end without a fault and leave their arguments unchanged: for the kernel program
  this is the launch of two pipelines in sequence with host operations between and after them, the second
  pipeline keeping its 1×1 accumulator from grid point to grid point.
-/
import proofs.«156872_j69672959475957_1_alg».proof.Defs
import proofs.«156872_j69672959475957_1_alg».proof.Proof.Gen.Kernel
import proofs.«156872_j69672959475957_1_alg».proof.Proof.Gen.KernelIdeal
import proofs.«156872_j69672959475957_1_alg».proof.Proof.Gen.ReferenceIdeal
import proofs.«156872_j69672959475957_1_alg».proof.Proof.Gen.Pre_finite_inputs
import proofs.«156872_j69672959475957_1_alg».proof.Proof.K.Run
import proofs.«156872_j69672959475957_1_alg».proof.Proof.KI.Run
import proofs.«156872_j69672959475957_1_alg».proof.Proof.KVal
import proofs.«156872_j69672959475957_1_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the loss of the specification in their result. -/
theorem algebraic : Cert.algebraic_KernelIdeal_ReferenceIdeal := by
  intro m ρ m' ρ' _ hagree
  refine ⟨fun c => fun _ => Cert.Spec.loss (Cert.KernelIdeal.Hand.mA m ρ c) (Cert.KernelIdeal.Hand.mB m ρ c) (Cert.KernelIdeal.Hand.mT m ρ c), ?_, ?_⟩
  · refine (θ_run Cert.KernelIdeal.defs _ _).mono (fun r h c => ?_) (Cert.KernelIdeal.Hand.run (F := Ideal) m ρ)
    exact ⟨(h c _ (Cert.KernelIdeal.Hand.mem_uc Cert.KernelIdeal.main_v15 (by decide))).trans
        (funext fun i => Cert.KernelIdeal.Hand.result_eq m ρ c i),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq]
    funext i
    rw [Cert.ReferenceIdeal.RefValue.result_eq, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
